-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096 .f32) (main_arg3 : FVec F S4096x4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S1024x4096 : Shape := ⟨2, ![1024, 4096]⟩
abbrev S1024 : Shape := ⟨1, ![1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩

abbrev nBuf : Space → Nat
  | .hbm => 13
  | .vmem => 24
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .bf16⟩
  | .hbm, ⟨8, _⟩ => ⟨S8192x4096, .f32⟩
  | .hbm, ⟨9, _⟩ => ⟨S4096x4096, .bf16⟩
  | .hbm, ⟨10, _⟩ => ⟨S8192x4096, .f32⟩
  | .hbm, ⟨11, _⟩ => ⟨S4096x4096, .bf16⟩
  | .hbm, ⟨12, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1024x4096, .bf16⟩
  | .local _ .vmem, ⟨3, _⟩ => ⟨S1024x4096, .bf16⟩
  | .local _ .vmem, ⟨4, _⟩ => ⟨S1024, .f32⟩
  | .local _ .vmem, ⟨5, _⟩ => ⟨S1024, .f32⟩
  | .local _ .vmem, ⟨6, _⟩ => ⟨S256x1024, .f32⟩
  | .local _ .vmem, ⟨7, _⟩ => ⟨S256x1024, .f32⟩
  | .local _ .vmem, ⟨8, _⟩ => ⟨S256x4096, .f32⟩
  | .local _ .vmem, ⟨9, _⟩ => ⟨S256x4096, .f32⟩
  | .local _ .vmem, ⟨10, _⟩ => ⟨S1024x4096, .bf16⟩
  | .local _ .vmem, ⟨11, _⟩ => ⟨S1024x4096, .bf16⟩
  | .local _ .vmem, ⟨12, _⟩ => ⟨S1024, .f32⟩
  | .local _ .vmem, ⟨13, _⟩ => ⟨S1024, .f32⟩
  | .local _ .vmem, ⟨14, _⟩ => ⟨S256x1024, .f32⟩
  | .local _ .vmem, ⟨15, _⟩ => ⟨S256x1024, .f32⟩
  | .local _ .vmem, ⟨16, _⟩ => ⟨S256x4096, .f32⟩
  | .local _ .vmem, ⟨17, _⟩ => ⟨S256x4096, .f32⟩
  | .local _ .vmem, ⟨18, _⟩ => ⟨S1024x4096, .bf16⟩
  | .local _ .vmem, ⟨19, _⟩ => ⟨S1024x4096, .bf16⟩
  | .local _ .vmem, ⟨20, _⟩ => ⟨S1024, .f32⟩
  | .local _ .vmem, ⟨21, _⟩ => ⟨S1024, .f32⟩
  | .local _ .vmem, ⟨22, _⟩ => ⟨S256x1024, .f32⟩
  | .local _ .vmem, ⟨23, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![32, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S256x4096_S256x4096 : S256x4096.ShapeCasts S256x4096
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x4096.size a
  hwx0_3 : ∀ i : grid0.Coords, EltTy.bits .f32 = 32 ∨ (Rect.block (s := S8192x4096) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S8192x4096.size a
  hwx1_3 : ∀ i : grid1.Coords, EltTy.bits .f32 = 32 ∨ (Rect.block (s := S8192x4096) S256x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S8192x4096.size a
  hwx2_0 : ∀ i : grid2.Coords, EltTy.bits .f32 = 32 ∨ (Rect.block (s := S8192x4096) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S4096x4096.size a
  hwx2_1 : ∀ i : grid2.Coords, EltTy.bits .bf16 = 32 ∨ (Rect.block (s := S4096x4096) S1024x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S4096.size a
  hwx2_2 : ∀ i : grid2.Coords, EltTy.bits .f32 = 32 ∨ (Rect.block (s := S4096) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S8192x4096.size a
  hwx2_3 : ∀ i : grid2.Coords, EltTy.bits .f32 = 32 ∨ (Rect.block (s := S8192x4096) S256x1024.size (cc2_transform_3 i) (hinb2_3 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x4096, .f32⟩
  | .hbm, ⟨50, _⟩ => ⟨S8192x4096, .f32⟩
  | .hbm, ⟨51, _⟩ => ⟨S8192x4096, .f32⟩
  | .hbm, ⟨52, _⟩ => ⟨S1x4096, .f32⟩
  | .hbm, ⟨53, _⟩ => ⟨S8192x4096, .f32⟩
  | .hbm, ⟨54, _⟩ => ⟨S8192x4096, .f32⟩
  | .hbm, ⟨55, _⟩ => ⟨S_, .f32⟩
  | .hbm, ⟨56, _⟩ => ⟨S8192x4096, .f32⟩
  | .hbm, ⟨57, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_call2_v0 : Ref sig .tc := ⟨.hbm, 24, rfl⟩
abbrev main_call2_cst : Ref sig .tc := ⟨.hbm, 25, rfl⟩
abbrev main_call2_v1 : Ref sig .tc := ⟨.hbm, 26, rfl⟩
abbrev main_call2_v2 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call3_cst : Ref sig .tc := ⟨.hbm, 38, rfl⟩
abbrev main_call3_v0 : Ref sig .tc := ⟨.hbm, 39, rfl⟩
abbrev main_v19 : Ref sig .tc := ⟨.hbm, 40, rfl⟩
abbrev main_call4_v0 : Ref sig .tc := ⟨.hbm, 41, rfl⟩
abbrev main_call4_cst : Ref sig .tc := ⟨.hbm, 42, rfl⟩
abbrev main_call4_v1 : Ref sig .tc := ⟨.hbm, 43, rfl⟩
abbrev main_call4_v2 : Ref sig .tc := ⟨.hbm, 44, rfl⟩
abbrev main_v20 : Ref sig .tc := ⟨.hbm, 45, rfl⟩
abbrev main_cst_1 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call5_cst : Ref sig .tc := ⟨.hbm, 55, rfl⟩
abbrev main_call5_v0 : Ref sig .tc := ⟨.hbm, 56, rfl⟩
abbrev main_v29 : Ref sig .tc := ⟨.hbm, 57, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Layer.lean ====
/-
  One layer of the network as a function on the extended reals.

  For an input matrix `X` of shape [R, K], a weight matrix `W` of shape [O, K] (one row per output feature) and a
  bias `b` of length O, the layer first divides every row of `X` by its Euclidean norm, the norm clamped from
  below by a small positive constant, then takes the inner product of the normalised row with each row of `W`,
  adds the bias and clamps the result from below by zero:

    layer X W b (r, o) = max (Σ_k (X(r,k) / max (√(Σ_j X(r,j)²)) ε) · W(o,k) + b(o)) 0.

  An entry depends only on row `r` of `X`, row `o` of `W` and entry `o` of `b` (`entry_congr`): this is what lets a
  tile of the result be computed from a band of rows of `X` and a band of rows of `W`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Mlp

/-- The Euclidean norm of row `r`, clamped from below by the constant ε (the float 9.99999996e-13). -/
def rowNorm {R K : ℕ} (X : (⟨2, ![R, K]⟩ : Shape).Idx → EReal) (r : Fin R) : EReal :=
  max (Ideal.sqrt (∑ k : Fin K, X (ix2 r k) * X (ix2 r k))) (Ideal.ofBits .f32 0x2B8CBCCC#32)

/-- Entry (r, o) of the layer. -/
def entry {R K O : ℕ} (X : (⟨2, ![R, K]⟩ : Shape).Idx → EReal) (W : (⟨2, ![O, K]⟩ : Shape).Idx → EReal)
    (b : (⟨1, ![O]⟩ : Shape).Idx → EReal) (r : Fin R) (o : Fin O) : EReal :=
  max ((∑ k : Fin K, Ideal.div (X (ix2 r k)) (rowNorm X r) * W (ix2 o k)) + b (ix1 o)) (Ideal.ofBits .f32 0x00000000#32)

/-- The layer as a whole [R, O] array. -/
def layer {R K O : ℕ} (X : (⟨2, ![R, K]⟩ : Shape).Idx → EReal) (W : (⟨2, ![O, K]⟩ : Shape).Idx → EReal)
    (b : (⟨1, ![O]⟩ : Shape).Idx → EReal) : (⟨2, ![R, O]⟩ : Shape).Idx → EReal :=
  fun i => entry X W b (i 0) (i 1)

theorem layer_apply {R K O : ℕ} (X : (⟨2, ![R, K]⟩ : Shape).Idx → EReal) (W : (⟨2, ![O, K]⟩ : Shape).Idx → EReal)
    (b : (⟨1, ![O]⟩ : Shape).Idx → EReal) (r : Fin R) (o : Fin O) : layer X W b (ix2 r o) = entry X W b r o := rfl

/-- The clamped norm of a row depends on that row only. -/
theorem rowNorm_congr {R R' K : ℕ} (X : (⟨2, ![R, K]⟩ : Shape).Idx → EReal) (X' : (⟨2, ![R', K]⟩ : Shape).Idx → EReal)
    (r : Fin R) (r' : Fin R') (hX : ∀ k : Fin K, X (ix2 r k) = X' (ix2 r' k)) : rowNorm X r = rowNorm X' r' := by
  unfold rowNorm
  simp only [hX]

/-- An entry depends on one row of the input, one row of the weights and one bias entry only. -/
theorem entry_congr {R R' K O O' : ℕ} (X : (⟨2, ![R, K]⟩ : Shape).Idx → EReal) (X' : (⟨2, ![R', K]⟩ : Shape).Idx → EReal)
    (W : (⟨2, ![O, K]⟩ : Shape).Idx → EReal) (W' : (⟨2, ![O', K]⟩ : Shape).Idx → EReal)
    (b : (⟨1, ![O]⟩ : Shape).Idx → EReal) (b' : (⟨1, ![O']⟩ : Shape).Idx → EReal)
    (r : Fin R) (r' : Fin R') (o : Fin O) (o' : Fin O')
    (hX : ∀ k : Fin K, X (ix2 r k) = X' (ix2 r' k)) (hW : ∀ k : Fin K, W (ix2 o k) = W' (ix2 o' k))
    (hb : b (ix1 o) = b' (ix1 o')) : entry X W b r o = entry X' W' b' r' o' := by
  unfold entry
  rw [rowNorm_congr X X' r r' hX, hb]
  simp only [hX, hW]

end Cert.Mlp

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«180426_j61074434949468_1_alg».proof.Proof.LibRows
import proofs.«180426_j61074434949468_1_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.KernelTile.lean ====
/-
  What one grid point of a layer kernel computes, on the extended reals.

  The body of each of the three kernels receives a band of 256 rows of the input (all 4096 columns), a band of
  1024 rows of the weight matrix and the matching 1024 bias entries, and stores a 256 × 1024 tile. Read index by
  index at the exact instance the stored tile is the layer function of those three pieces (`tile_apply`): the sum
  of squares along a row, its square root clamped from below, the row divided by it, the matrix unit's
  contraction of the normalised row with a weight row (both contracted along their second axis, into a zero
  accumulator, so a plain sum of products), the bias added and the clamp at zero. A change of float format is the
  identity here. The second and third kernels differ from the first by a reshape of the input band to its own
  shape, which is the identity (`tile1_eq`, `tile2_eq`).

  Since an entry of the layer depends on one input row, one weight row and one bias entry only, a tile computed
  from bands that are rows `256·a …` of `X`, rows `1024·d …` of `W` and entries `1024·d …` of `b` is the
  corresponding tile of the whole layer (`tile_of_bands`).
-/
import proofs.«180426_j61074434949468_1_alg».proof.Proof.Gen.KernelIdeal.Skeleton
import proofs.«180426_j61074434949468_1_alg».proof.Proof.Layer
import proofs.«180426_j61074434949468_1_alg».proof.Proof.LibMatrixReduce
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Tile

open Cert.KernelIdeal Cert.KernelIdeal.Gen

/-- The contraction record of the kernels' matrix product: both operands contracted along axis 1. -/
abbrev D := dot_S256x4096_S1024x4096_S256x1024_1_1_0_0_n_n

theorem lhs_0 (i : S256x1024.Idx) (q : D.contr.Idx) : (D.lhsIdx i q 0).val = (i 0).val := by
  unfold DotDims.lhsIdx
  rw [dif_neg (show ¬(0 : Fin S256x4096.rank) ∈ D.lhsBatch by decide), dif_pos (show (0 : Fin S256x4096.rank) ∈ D.lhsNonContracting by decide)]
  rfl
theorem lhs_1 (i : S256x1024.Idx) (q : D.contr.Idx) : (D.lhsIdx i q 1).val = (q ⟨0, by decide⟩).val :=
  D.lhsIdx_val_of_single rfl i q
theorem rhs_0 (i : S256x1024.Idx) (q : D.contr.Idx) : (D.rhsIdx i q 0).val = (i 1).val := by
  unfold DotDims.rhsIdx
  rw [dif_neg (show ¬(0 : Fin S1024x4096.rank) ∈ D.rhsBatch by decide), dif_pos (show (0 : Fin S1024x4096.rank) ∈ D.rhsNonContracting by decide)]
  rfl
theorem rhs_1 (i : S256x1024.Idx) (q : D.contr.Idx) : (D.rhsIdx i q 1).val = (q ⟨0, by decide⟩).val :=
  D.rhsIdx_val_of_single rfl i q

/-- The matrix unit's product into a zero accumulator, at (p, q): the inner product of row `p` of the left
    operand with row `q` of the right one. -/
theorem rowsProduct_apply (l : FVec Ideal S256x4096 .bf16) (r : FVec Ideal S1024x4096 .bf16) (p : Fin 256) (q : Fin 1024) :
    matmul D none l r (constant (F := Ideal) S256x1024 .f32 0x00000000#32) (ix2 p q)
      = ∑ k : Fin 4096, l (ix2 p k) * r (ix2 q k) := by
  refine (Ideal.matmul_constant_zero_apply D none l r (ix2 p q)).trans ?_
  rw [← Equiv.sum_comp (ValueIdx.contrEquiv1 D 4096 rfl rfl).symm]
  refine Finset.sum_congr rfl fun k _ => ?_
  have hk := ValueIdx.contrEquiv1_symm_val D 4096 rfl rfl k
  have el : D.lhsIdx (ix2 p q) ((ValueIdx.contrEquiv1 D 4096 rfl rfl).symm k) = ix2 p k := funext fun a => Fin.ext (by
    match a with
    | ⟨0, _⟩ => exact lhs_0 _ _
    | ⟨1, _⟩ => exact (lhs_1 _ _).trans hk)
  have er : D.rhsIdx (ix2 p q) ((ValueIdx.contrEquiv1 D 4096 rfl rfl).symm k) = ix2 q k := funext fun a => Fin.ext (by
    match a with
    | ⟨0, _⟩ => exact rhs_0 _ _
    | ⟨1, _⟩ => exact (rhs_1 _ _).trans hk)
  rw [el, er]

/-- The clamped row norm as the kernel computes it, broadcast along the row: at (p, k) it is the clamped norm of row `p`. -/
theorem clampedNorm_apply (x0 : FVec Ideal S256x4096 .f32) (p : Fin 256) (k : Fin 4096) :
    broadcastTo S256x4096 (maximumf (sqrt (shapeCast S256x1 (multiReduction .add [1] S256 (mulf x0 x0) 0x00000000#32 reduces_S256x4096_S256 (.inl rfl) rfl) shapeCasts_S256_S256x1))
        (broadcast S256x1 (Scalar.ofBits (F := Ideal) .f32 0x2B8CBCCC#32))) broadcasts_S256x1_S256x4096 (ix2 p k)
      = Cert.Mlp.rowNorm (R := 256) (K := 4096) x0 p := by
  refine (Cert.Rows.bcast_col (by decide) _ _ p k).trans ?_
  unfold Cert.Mlp.rowNorm
  show max (Ideal.sqrt (shapeCast S256x1 _ _ (ix2 p 0))) _ = _
  refine congrArg₂ max (congrArg Ideal.sqrt ?_) rfl
  refine (Cert.Rows.cast_col _ _ p).trans ?_
  exact Cert.LibMatrixReduce.rowSum_apply (mulf x0 x0) _ _ _ _ p

/-- THE TILE: what the first kernel's body stores, at (p, q), is the layer's entry of the three pieces. -/
theorem tile_apply (x0 : Vec Ideal S256x4096 .f32) (x1 : Vec Ideal S1024x4096 .bf16) (x2 : Vec Ideal S1024 .f32)
    (p : Fin 256) (q : Fin 1024) :
    k0_pay1 (F := Ideal) x0 x1 x2 (ix2 p q) = Cert.Mlp.entry (R := 256) (K := 4096) (O := 1024) x0 x1 x2 p q := by
  unfold k0_pay1 Cert.Mlp.entry
  dsimp only
  show max (matmul D none _ _ _ (ix2 p q) + broadcastTo S256x1024 _ _ (ix2 p q)) _ = _
  refine congrArg₂ max (congrArg₂ (· + ·) ?_ ?_) rfl
  · refine (rowsProduct_apply _ _ p q).trans (Finset.sum_congr rfl fun k _ => ?_)
    refine congrArg₂ (· * ·) ?_ ?_
    · show Ideal.div (x0 (ix2 p k)) _ = _
      exact congrArg (Ideal.div (x0 (ix2 p k))) (clampedNorm_apply x0 p k)
    · exact congrFun (shapeCast_self x1 _) (ix2 q k)
  · exact Cert.LibMatrixReduce.keptRow_apply x2 _ _ p q

/-- The second kernel's body stores the same function of its pieces (its reshape of the input band to its own shape is the identity). -/
theorem tile1_eq (x0 : Vec Ideal S256x4096 .f32) (x1 : Vec Ideal S1024x4096 .bf16) (x2 : Vec Ideal S1024 .f32) :
    k1_pay1 (F := Ideal) x0 x1 x2 = k0_pay1 (F := Ideal) x0 x1 x2 := by
  unfold k1_pay1 k0_pay1
  simp only [shapeCast_self]

/-- The third kernel's likewise. -/
theorem tile2_eq (x0 : Vec Ideal S256x4096 .f32) (x1 : Vec Ideal S1024x4096 .bf16) (x2 : Vec Ideal S1024 .f32) :
    k2_pay1 (F := Ideal) x0 x1 x2 = k0_pay1 (F := Ideal) x0 x1 x2 := by
  unfold k2_pay1 k0_pay1
  simp only [shapeCast_self]

/-- A TILE FROM BANDS: when the three pieces are rows `256·a + p` of `X`, rows `1024·d + q` of `W` and entries
    `1024·d + q` of `b`, the stored tile at (p, q) is the whole layer at (256·a + p, 1024·d + q). -/
theorem tile_of_bands (X : (⟨2, ![8192, 4096]⟩ : Shape).Idx → EReal) (W : (⟨2, ![4096, 4096]⟩ : Shape).Idx → EReal)
    (b : (⟨1, ![4096]⟩ : Shape).Idx → EReal)
    (x0 : Vec Ideal S256x4096 .f32) (x1 : Vec Ideal S1024x4096 .bf16) (x2 : Vec Ideal S1024 .f32)
    (a d : ℕ) (p : Fin 256) (q : Fin 1024) (ha : a * 256 + p.val < 8192) (hd : d * 1024 + q.val < 4096)
    (h0 : ∀ k : Fin 4096, x0 (ix2 p k) = X (ix2 ⟨a * 256 + p.val, ha⟩ k))
    (h1 : ∀ k : Fin 4096, x1 (ix2 q k) = W (ix2 ⟨d * 1024 + q.val, hd⟩ k))
    (h2 : x2 (ix1 q) = b (ix1 ⟨d * 1024 + q.val, hd⟩)) :
    k0_pay1 (F := Ideal) x0 x1 x2 (ix2 p q) = Cert.Mlp.layer X W b (ix2 ⟨a * 256 + p.val, ha⟩ ⟨d * 1024 + q.val, hd⟩) :=
  (tile_apply x0 x1 x2 p q).trans
    (Cert.Mlp.entry_congr (R := 256) (R' := 8192) (K := 4096) (O := 1024) (O' := 4096) x0 X x1 W x2 b p _ q _ h0 h1 h2)

end Cert.KernelIdeal.Tile

end
-- ==== Proof.Launch0.lean ====
/-
  The first kernel launch as one whole-array function.

  The launch walks a 32 × 4 grid. At grid point (a, d) it fetches rows `256·a … 256·a + 255` of its input array,
  rows `1024·d … 1024·d + 1023` of its weight array and the same range of its bias vector, and writes back the
  256 × 1024 tile at block position (a, d) of its output array. The tile is the layer function of the three
  pieces, and an entry of the layer depends on one input row, one weight row and one bias entry only; so the
  tile written at (a, d) is the tile at that position of the layer of the WHOLE arrays (`written_tile`). The 128
  tiles cover the output array — the index (i, j) lies in the tile of the point with block position
  (i / 256, j / 1024) — so after the launch the output array is the layer of the arrays the launch found
  (`whole_array`), whatever those are.
-/
import proofs.«180426_j61074434949468_1_alg».proof.Proof.Gen.KernelIdeal.Frame
import proofs.«180426_j61074434949468_1_alg».proof.Proof.KernelTile
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Launch0

open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The block positions of the four windows at a grid point: the input band moves with the output tile's row
    position, the weight band and the bias piece with its column position. -/
theorem positions : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 1) = win0_3.index t (1 : Fin 2)
    ∧ win0_3.index t (0 : Fin 2) < 32 ∧ win0_3.index t (1 : Fin 2) < 4 :=
  (by decide +kernel : ∀ t : Fin grid0.N, _)

/-- Every block position of the output is some grid point's. -/
theorem positions_onto : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-- The input band at a point, read at (p, k): row `256·a + p` of the input array, `a` the band's block position. -/
theorem band0_apply (c : Dev nD) (t : Fin cfg0.N) (p : Fin 256) (k : Fin 4096) (r : Fin 8192)
    (hr : r.val = win0_0.index t (0 : Fin 2) * 256 + p.val) (h1 : win0_0.index t (1 : Fin 2) = 0) :
    (iblk0 V c 0 t : Vec Ideal S256x4096 .f32) (ix2 p k) = (V c main_arg0 : S8192x4096.Idx → EReal) (ix2 r k) := by
  unfold iblk0
  rw [View.read_apply]
  show V c main_arg0 _ = V c main_arg0 _
  refine congrArg (V c main_arg0) (funext fun a => Fin.ext ?_)
  match a with
  | ⟨0, _⟩ => show win0_0.index t (0 : Fin 2) * 256 + 1 * p.val = r.val; omega
  | ⟨1, _⟩ => show win0_0.index t (1 : Fin 2) * 4096 + 1 * k.val = k.val; omega

/-- The weight band at a point, read at (q, k): row `1024·d + q` of the weight array. -/
theorem band1_apply (c : Dev nD) (t : Fin cfg0.N) (q : Fin 1024) (k : Fin 4096) (o : Fin 4096)
    (ho : o.val = win0_1.index t (0 : Fin 2) * 1024 + q.val) (h1 : win0_1.index t (1 : Fin 2) = 0) :
    (iblk0 V c 1 t : Vec Ideal S1024x4096 .bf16) (ix2 q k) = (V c main_v0 : S4096x4096.Idx → EReal) (ix2 o k) := by
  unfold iblk0
  rw [View.read_apply]
  show V c main_v0 _ = V c main_v0 _
  refine congrArg (V c main_v0) (funext fun a => Fin.ext ?_)
  match a with
  | ⟨0, _⟩ => show win0_1.index t (0 : Fin 2) * 1024 + 1 * q.val = o.val; omega
  | ⟨1, _⟩ => show win0_1.index t (1 : Fin 2) * 4096 + 1 * k.val = k.val; omega

/-- The bias piece at a point, read at q: entry `1024·d + q` of the bias vector. -/
theorem band2_apply (c : Dev nD) (t : Fin cfg0.N) (q : Fin 1024) (o : Fin 4096)
    (ho : o.val = win0_2.index t (0 : Fin 1) * 1024 + q.val) :
    (iblk0 V c 2 t : Vec Ideal S1024 .f32) (ix1 q) = (V c main_arg2 : S4096.Idx → EReal) (ix1 o) := by
  unfold iblk0
  rw [View.read_apply]
  show V c main_arg2 _ = V c main_arg2 _
  refine congrArg (V c main_arg2) (funext fun a => Fin.ext ?_)
  match a with
  | ⟨0, _⟩ => show win0_2.index t (0 : Fin 1) * 1024 + 1 * q.val = o.val; omega

/-- WHAT A POINT WRITES BACK is its tile of the layer of the whole arrays as the launch finds them. -/
theorem written_tile (c : Dev nD) (t : Fin cfg0.N) :
    (dat0 V c).flushed 3 t = ((cfg0.win 3).blk t).view.read (Elt Ideal)
      (Cert.Mlp.layer (R := 8192) (K := 4096) (O := 4096) (V c main_arg0) (V c main_v0) (V c main_arg2)) := by
  show (cfg0.win 3).cut (grid0.coords t) ((dat0 V c).after 3 t) = _
  rw [after0_3]
  unfold out0_3
  rw [View.canon_unit_zero zeros2]
  simp only [View.ld_unit_zero (S := S256x4096) zeros2, View.ld_unit_zero (S := S1024x4096) zeros2, View.ld_unit_zero (S := S1024) zeros1]
  obtain ⟨e0, e1, e2, e3, e4, e5, e6⟩ := positions t
  funext j
  obtain ⟨p, q, rfl⟩ : ∃ (p : Fin 256) (q : Fin 1024), j = ix2 p q := ⟨j 0, j 1, eq_ix2 j⟩
  have hp : p.val < 256 := p.isLt
  have hq : q.val < 1024 := q.isLt
  have ha : win0_3.index t (0 : Fin 2) * 256 + p.val < 8192 := by omega
  have hd : win0_3.index t (1 : Fin 2) * 1024 + q.val < 4096 := by omega
  show k0_pay1 (F := Ideal) (iblk0 V c 0 t) (iblk0 V c 1 t) (iblk0 V c 2 t) (ix2 p q)
    = Cert.Mlp.layer (R := 8192) (K := 4096) (O := 4096) (V c main_arg0) (V c main_v0) (V c main_arg2) (((cfg0.win 3).blk t).view.emb (ix2 p q))
  refine (Cert.KernelIdeal.Tile.tile_of_bands (V c main_arg0) (V c main_v0) (V c main_arg2) (iblk0 V c 0 t) (iblk0 V c 1 t) (iblk0 V c 2 t)
    (win0_3.index t (0 : Fin 2)) (win0_3.index t (1 : Fin 2)) p q ha hd
    (fun k => band0_apply V c t p k ⟨_, ha⟩ (by show win0_3.index t (0 : Fin 2) * 256 + p.val = win0_0.index t (0 : Fin 2) * 256 + p.val; omega) e1)
    (fun k => band1_apply V c t q k ⟨_, hd⟩ (by show win0_3.index t (1 : Fin 2) * 1024 + q.val = win0_1.index t (0 : Fin 2) * 1024 + q.val; omega) e3)
    (band2_apply V c t q ⟨_, hd⟩ (by show win0_3.index t (1 : Fin 2) * 1024 + q.val = win0_2.index t (0 : Fin 1) * 1024 + q.val; omega))).trans ?_
  refine congrArg (Cert.Mlp.layer (R := 8192) (K := 4096) (O := 4096) (V c main_arg0) (V c main_v0) (V c main_arg2)) (funext fun a => Fin.ext ?_)
  match a with
  | ⟨0, _⟩ => show win0_3.index t (0 : Fin 2) * 256 + p.val = win0_3.index t (0 : Fin 2) * 256 + 1 * p.val; omega
  | ⟨1, _⟩ => show win0_3.index t (1 : Fin 2) * 1024 + q.val = win0_3.index t (1 : Fin 2) * 1024 + 1 * q.val; omega

/-- An index of the output array is in a point's tile iff each coordinate is in the tile's range on its axis. -/
theorem mem_tile (t : Fin cfg0.N) (i : S8192x4096.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v1).slice (win0_3.rect t)).set ↔ _
  rw [View.set_slice_whole, Rect.mem_set_unit]
  exact Iff.rfl

/-- The tiles cover the output array. -/
theorem tiles_cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := positions_onto ⟨(i 0).val / 256, by omega⟩ ⟨(i 1).val / 1024, by omega⟩
  have q0 : win0_3.index t (0 : Fin 2) = (i 0).val / 256 := congrFun ht 0
  have q1 : win0_3.index t (1 : Fin 2) = (i 1).val / 1024 := congrFun ht 1
  refine ⟨t, flush0_3 t, ?_⟩
  rw [mem_tile]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- THE OUTPUT ARRAY after the launch: the layer of the input, weight and bias arrays as the launch found them. -/
theorem whole_array (c : Dev nD) :
    (dat0 V c).arrAt 3 cfg0.N = Cert.Mlp.layer (R := 8192) (K := 4096) (O := 4096) (V c main_arg0) (V c main_v0) (V c main_arg2) :=
  (dat0 V c).arrAt_eq_of_cover 3 _ (fun t _ => written_tile V c t) tiles_cover

end Cert.KernelIdeal.Launch0

end
-- ==== Proof.Launch1.lean ====
/-
  The second kernel launch as one whole-array function.

  The launch walks a 32 × 4 grid. At grid point (a, d) it fetches rows `256·a … 256·a + 255` of its input array,
  rows `1024·d … 1024·d + 1023` of its weight array and the same range of its bias vector, and writes back the
  256 × 1024 tile at block position (a, d) of its output array. The tile is the layer function of the three
  pieces, and an entry of the layer depends on one input row, one weight row and one bias entry only; so the
  tile written at (a, d) is the tile at that position of the layer of the WHOLE arrays (`written_tile`). The 128
  tiles cover the output array — the index (i, j) lies in the tile of the point with block position
  (i / 256, j / 1024) — so after the launch the output array is the layer of the arrays the launch found
  (`whole_array`), whatever those are.
-/
import proofs.«180426_j61074434949468_1_alg».proof.Proof.Gen.KernelIdeal.Frame
import proofs.«180426_j61074434949468_1_alg».proof.Proof.KernelTile
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Launch1

open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The block positions of the four windows at a grid point: the input band moves with the output tile's row
    position, the weight band and the bias piece with its column position. -/
theorem positions : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 1) = win1_3.index t (1 : Fin 2)
    ∧ win1_3.index t (0 : Fin 2) < 32 ∧ win1_3.index t (1 : Fin 2) < 4 :=
  (by decide +kernel : ∀ t : Fin grid1.N, _)

/-- Every block position of the output is some grid point's. -/
theorem positions_onto : ∀ (q0 : Fin 32) (q1 : Fin 4), ∃ t : Fin cfg1.N, win1_3.index t = ![q0.val, q1.val] :=
  (by decide +kernel : ∀ (q0 : Fin 32) (q1 : Fin 4), ∃ t : Fin grid1.N, win1_3.index t = ![q0.val, q1.val])

/-- The input band at a point, read at (p, k): row `256·a + p` of the input array, `a` the band's block position. -/
theorem band0_apply (c : Dev nD) (t : Fin cfg1.N) (p : Fin 256) (k : Fin 4096) (r : Fin 8192)
    (hr : r.val = win1_0.index t (0 : Fin 2) * 256 + p.val) (h1 : win1_0.index t (1 : Fin 2) = 0) :
    (iblk1 V c 0 t : Vec Ideal S256x4096 .f32) (ix2 p k) = (V c main_v1 : S8192x4096.Idx → EReal) (ix2 r k) := by
  unfold iblk1
  rw [View.read_apply]
  show V c main_v1 _ = V c main_v1 _
  refine congrArg (V c main_v1) (funext fun a => Fin.ext ?_)
  match a with
  | ⟨0, _⟩ => show win1_0.index t (0 : Fin 2) * 256 + 1 * p.val = r.val; omega
  | ⟨1, _⟩ => show win1_0.index t (1 : Fin 2) * 4096 + 1 * k.val = k.val; omega

/-- The weight band at a point, read at (q, k): row `1024·d + q` of the weight array. -/
theorem band1_apply (c : Dev nD) (t : Fin cfg1.N) (q : Fin 1024) (k : Fin 4096) (o : Fin 4096)
    (ho : o.val = win1_1.index t (0 : Fin 2) * 1024 + q.val) (h1 : win1_1.index t (1 : Fin 2) = 0) :
    (iblk1 V c 1 t : Vec Ideal S1024x4096 .bf16) (ix2 q k) = (V c main_v2 : S4096x4096.Idx → EReal) (ix2 o k) := by
  unfold iblk1
  rw [View.read_apply]
  show V c main_v2 _ = V c main_v2 _
  refine congrArg (V c main_v2) (funext fun a => Fin.ext ?_)
  match a with
  | ⟨0, _⟩ => show win1_1.index t (0 : Fin 2) * 1024 + 1 * q.val = o.val; omega
  | ⟨1, _⟩ => show win1_1.index t (1 : Fin 2) * 4096 + 1 * k.val = k.val; omega

/-- The bias piece at a point, read at q: entry `1024·d + q` of the bias vector. -/
theorem band2_apply (c : Dev nD) (t : Fin cfg1.N) (q : Fin 1024) (o : Fin 4096)
    (ho : o.val = win1_2.index t (0 : Fin 1) * 1024 + q.val) :
    (iblk1 V c 2 t : Vec Ideal S1024 .f32) (ix1 q) = (V c main_arg4 : S4096.Idx → EReal) (ix1 o) := by
  unfold iblk1
  rw [View.read_apply]
  show V c main_arg4 _ = V c main_arg4 _
  refine congrArg (V c main_arg4) (funext fun a => Fin.ext ?_)
  match a with
  | ⟨0, _⟩ => show win1_2.index t (0 : Fin 1) * 1024 + 1 * q.val = o.val; omega

/-- WHAT A POINT WRITES BACK is its tile of the layer of the whole arrays as the launch finds them. -/
theorem written_tile (c : Dev nD) (t : Fin cfg1.N) :
    (dat1 V c).flushed 3 t = ((cfg1.win 3).blk t).view.read (Elt Ideal)
      (Cert.Mlp.layer (R := 8192) (K := 4096) (O := 4096) (V c main_v1) (V c main_v2) (V c main_arg4)) := by
  show (cfg1.win 3).cut (grid1.coords t) ((dat1 V c).after 3 t) = _
  rw [after1_3]
  unfold out1_3
  rw [View.canon_unit_zero zeros2]
  simp only [View.ld_unit_zero (S := S256x4096) zeros2, View.ld_unit_zero (S := S1024x4096) zeros2, View.ld_unit_zero (S := S1024) zeros1]
  rw [Cert.KernelIdeal.Tile.tile1_eq]
  obtain ⟨e0, e1, e2, e3, e4, e5, e6⟩ := positions t
  funext j
  obtain ⟨p, q, rfl⟩ : ∃ (p : Fin 256) (q : Fin 1024), j = ix2 p q := ⟨j 0, j 1, eq_ix2 j⟩
  have hp : p.val < 256 := p.isLt
  have hq : q.val < 1024 := q.isLt
  have ha : win1_3.index t (0 : Fin 2) * 256 + p.val < 8192 := by omega
  have hd : win1_3.index t (1 : Fin 2) * 1024 + q.val < 4096 := by omega
  show k0_pay1 (F := Ideal) (iblk1 V c 0 t) (iblk1 V c 1 t) (iblk1 V c 2 t) (ix2 p q)
    = Cert.Mlp.layer (R := 8192) (K := 4096) (O := 4096) (V c main_v1) (V c main_v2) (V c main_arg4) (((cfg1.win 3).blk t).view.emb (ix2 p q))
  refine (Cert.KernelIdeal.Tile.tile_of_bands (V c main_v1) (V c main_v2) (V c main_arg4) (iblk1 V c 0 t) (iblk1 V c 1 t) (iblk1 V c 2 t)
    (win1_3.index t (0 : Fin 2)) (win1_3.index t (1 : Fin 2)) p q ha hd
    (fun k => band0_apply V c t p k ⟨_, ha⟩ (by show win1_3.index t (0 : Fin 2) * 256 + p.val = win1_0.index t (0 : Fin 2) * 256 + p.val; omega) e1)
    (fun k => band1_apply V c t q k ⟨_, hd⟩ (by show win1_3.index t (1 : Fin 2) * 1024 + q.val = win1_1.index t (0 : Fin 2) * 1024 + q.val; omega) e3)
    (band2_apply V c t q ⟨_, hd⟩ (by show win1_3.index t (1 : Fin 2) * 1024 + q.val = win1_2.index t (0 : Fin 1) * 1024 + q.val; omega))).trans ?_
  refine congrArg (Cert.Mlp.layer (R := 8192) (K := 4096) (O := 4096) (V c main_v1) (V c main_v2) (V c main_arg4)) (funext fun a => Fin.ext ?_)
  match a with
  | ⟨0, _⟩ => show win1_3.index t (0 : Fin 2) * 256 + p.val = win1_3.index t (0 : Fin 2) * 256 + 1 * p.val; omega
  | ⟨1, _⟩ => show win1_3.index t (1 : Fin 2) * 1024 + q.val = win1_3.index t (1 : Fin 2) * 1024 + 1 * q.val; omega

/-- An index of the output array is in a point's tile iff each coordinate is in the tile's range on its axis. -/
theorem mem_tile (t : Fin cfg1.N) (i : S8192x4096.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v3).slice (win1_3.rect t)).set ↔ _
  rw [View.set_slice_whole, Rect.mem_set_unit]
  exact Iff.rfl

/-- The tiles cover the output array. -/
theorem tiles_cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := positions_onto ⟨(i 0).val / 256, by omega⟩ ⟨(i 1).val / 1024, by omega⟩
  have q0 : win1_3.index t (0 : Fin 2) = (i 0).val / 256 := congrFun ht 0
  have q1 : win1_3.index t (1 : Fin 2) = (i 1).val / 1024 := congrFun ht 1
  refine ⟨t, flush1_3 t, ?_⟩
  rw [mem_tile]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 1024 ≤ (i 1).val ∧ (i 1).val < win1_3.index t (1 : Fin 2) * 1024 + 1024; omega

/-- THE OUTPUT ARRAY after the launch: the layer of the input, weight and bias arrays as the launch found them. -/
theorem whole_array (c : Dev nD) :
    (dat1 V c).arrAt 3 cfg1.N = Cert.Mlp.layer (R := 8192) (K := 4096) (O := 4096) (V c main_v1) (V c main_v2) (V c main_arg4) :=
  (dat1 V c).arrAt_eq_of_cover 3 _ (fun t _ => written_tile V c t) tiles_cover

end Cert.KernelIdeal.Launch1

end
-- ==== Proof.Launch2.lean ====
/-
  The third kernel launch as one whole-array function.

  The launch walks a 32 × 4 grid. At grid point (a, d) it fetches rows `256·a … 256·a + 255` of its input array,
  rows `1024·d … 1024·d + 1023` of its weight array and the same range of its bias vector, and writes back the
  256 × 1024 tile at block position (a, d) of its output array. The tile is the layer function of the three
  pieces, and an entry of the layer depends on one input row, one weight row and one bias entry only; so the
  tile written at (a, d) is the tile at that position of the layer of the WHOLE arrays (`written_tile`). The 128
  tiles cover the output array — the index (i, j) lies in the tile of the point with block position
  (i / 256, j / 1024) — so after the launch the output array is the layer of the arrays the launch found
  (`whole_array`), whatever those are.
-/
import proofs.«180426_j61074434949468_1_alg».proof.Proof.Gen.KernelIdeal.Frame
import proofs.«180426_j61074434949468_1_alg».proof.Proof.KernelTile
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Launch2

open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The block positions of the four windows at a grid point: the input band moves with the output tile's row
    position, the weight band and the bias piece with its column position. -/
theorem positions : ∀ t : Fin cfg2.N, win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 1) = win2_3.index t (1 : Fin 2)
    ∧ win2_3.index t (0 : Fin 2) < 32 ∧ win2_3.index t (1 : Fin 2) < 4 :=
  (by decide +kernel : ∀ t : Fin grid2.N, _)

/-- Every block position of the output is some grid point's. -/
theorem positions_onto : ∀ (q0 : Fin 32) (q1 : Fin 4), ∃ t : Fin cfg2.N, win2_3.index t = ![q0.val, q1.val] :=
  (by decide +kernel : ∀ (q0 : Fin 32) (q1 : Fin 4), ∃ t : Fin grid2.N, win2_3.index t = ![q0.val, q1.val])

/-- The input band at a point, read at (p, k): row `256·a + p` of the input array, `a` the band's block position. -/
theorem band0_apply (c : Dev nD) (t : Fin cfg2.N) (p : Fin 256) (k : Fin 4096) (r : Fin 8192)
    (hr : r.val = win2_0.index t (0 : Fin 2) * 256 + p.val) (h1 : win2_0.index t (1 : Fin 2) = 0) :
    (iblk2 V c 0 t : Vec Ideal S256x4096 .f32) (ix2 p k) = (V c main_v3 : S8192x4096.Idx → EReal) (ix2 r k) := by
  unfold iblk2
  rw [View.read_apply]
  show V c main_v3 _ = V c main_v3 _
  refine congrArg (V c main_v3) (funext fun a => Fin.ext ?_)
  match a with
  | ⟨0, _⟩ => show win2_0.index t (0 : Fin 2) * 256 + 1 * p.val = r.val; omega
  | ⟨1, _⟩ => show win2_0.index t (1 : Fin 2) * 4096 + 1 * k.val = k.val; omega

/-- The weight band at a point, read at (q, k): row `1024·d + q` of the weight array. -/
theorem band1_apply (c : Dev nD) (t : Fin cfg2.N) (q : Fin 1024) (k : Fin 4096) (o : Fin 4096)
    (ho : o.val = win2_1.index t (0 : Fin 2) * 1024 + q.val) (h1 : win2_1.index t (1 : Fin 2) = 0) :
    (iblk2 V c 1 t : Vec Ideal S1024x4096 .bf16) (ix2 q k) = (V c main_v4 : S4096x4096.Idx → EReal) (ix2 o k) := by
  unfold iblk2
  rw [View.read_apply]
  show V c main_v4 _ = V c main_v4 _
  refine congrArg (V c main_v4) (funext fun a => Fin.ext ?_)
  match a with
  | ⟨0, _⟩ => show win2_1.index t (0 : Fin 2) * 1024 + 1 * q.val = o.val; omega
  | ⟨1, _⟩ => show win2_1.index t (1 : Fin 2) * 4096 + 1 * k.val = k.val; omega

/-- The bias piece at a point, read at q: entry `1024·d + q` of the bias vector. -/
theorem band2_apply (c : Dev nD) (t : Fin cfg2.N) (q : Fin 1024) (o : Fin 4096)
    (ho : o.val = win2_2.index t (0 : Fin 1) * 1024 + q.val) :
    (iblk2 V c 2 t : Vec Ideal S1024 .f32) (ix1 q) = (V c main_arg6 : S4096.Idx → EReal) (ix1 o) := by
  unfold iblk2
  rw [View.read_apply]
  show V c main_arg6 _ = V c main_arg6 _
  refine congrArg (V c main_arg6) (funext fun a => Fin.ext ?_)
  match a with
  | ⟨0, _⟩ => show win2_2.index t (0 : Fin 1) * 1024 + 1 * q.val = o.val; omega

/-- WHAT A POINT WRITES BACK is its tile of the layer of the whole arrays as the launch finds them. -/
theorem written_tile (c : Dev nD) (t : Fin cfg2.N) :
    (dat2 V c).flushed 3 t = ((cfg2.win 3).blk t).view.read (Elt Ideal)
      (Cert.Mlp.layer (R := 8192) (K := 4096) (O := 4096) (V c main_v3) (V c main_v4) (V c main_arg6)) := by
  show (cfg2.win 3).cut (grid2.coords t) ((dat2 V c).after 3 t) = _
  rw [after2_3]
  unfold out2_3
  rw [View.canon_unit_zero zeros2]
  simp only [View.ld_unit_zero (S := S256x4096) zeros2, View.ld_unit_zero (S := S1024x4096) zeros2, View.ld_unit_zero (S := S1024) zeros1]
  rw [Cert.KernelIdeal.Tile.tile2_eq]
  obtain ⟨e0, e1, e2, e3, e4, e5, e6⟩ := positions t
  funext j
  obtain ⟨p, q, rfl⟩ : ∃ (p : Fin 256) (q : Fin 1024), j = ix2 p q := ⟨j 0, j 1, eq_ix2 j⟩
  have hp : p.val < 256 := p.isLt
  have hq : q.val < 1024 := q.isLt
  have ha : win2_3.index t (0 : Fin 2) * 256 + p.val < 8192 := by omega
  have hd : win2_3.index t (1 : Fin 2) * 1024 + q.val < 4096 := by omega
  show k0_pay1 (F := Ideal) (iblk2 V c 0 t) (iblk2 V c 1 t) (iblk2 V c 2 t) (ix2 p q)
    = Cert.Mlp.layer (R := 8192) (K := 4096) (O := 4096) (V c main_v3) (V c main_v4) (V c main_arg6) (((cfg2.win 3).blk t).view.emb (ix2 p q))
  refine (Cert.KernelIdeal.Tile.tile_of_bands (V c main_v3) (V c main_v4) (V c main_arg6) (iblk2 V c 0 t) (iblk2 V c 1 t) (iblk2 V c 2 t)
    (win2_3.index t (0 : Fin 2)) (win2_3.index t (1 : Fin 2)) p q ha hd
    (fun k => band0_apply V c t p k ⟨_, ha⟩ (by show win2_3.index t (0 : Fin 2) * 256 + p.val = win2_0.index t (0 : Fin 2) * 256 + p.val; omega) e1)
    (fun k => band1_apply V c t q k ⟨_, hd⟩ (by show win2_3.index t (1 : Fin 2) * 1024 + q.val = win2_1.index t (0 : Fin 2) * 1024 + q.val; omega) e3)
    (band2_apply V c t q ⟨_, hd⟩ (by show win2_3.index t (1 : Fin 2) * 1024 + q.val = win2_2.index t (0 : Fin 1) * 1024 + q.val; omega))).trans ?_
  refine congrArg (Cert.Mlp.layer (R := 8192) (K := 4096) (O := 4096) (V c main_v3) (V c main_v4) (V c main_arg6)) (funext fun a => Fin.ext ?_)
  match a with
  | ⟨0, _⟩ => show win2_3.index t (0 : Fin 2) * 256 + p.val = win2_3.index t (0 : Fin 2) * 256 + 1 * p.val; omega
  | ⟨1, _⟩ => show win2_3.index t (1 : Fin 2) * 1024 + q.val = win2_3.index t (1 : Fin 2) * 1024 + 1 * q.val; omega

/-- An index of the output array is in a point's tile iff each coordinate is in the tile's range on its axis. -/
theorem mem_tile (t : Fin cfg2.N) (i : S8192x4096.Idx) :
    i ∈ ((cfg2.win 3).blk t).view.set ↔ ∀ a : Fin 2, win2_3.index t a * S256x1024.size a ≤ (i a).val ∧ (i a).val < win2_3.index t a * S256x1024.size a + S256x1024.size a := by
  show i ∈ ((View.whole main_v5).slice (win2_3.rect t)).set ↔ _
  rw [View.set_slice_whole, Rect.mem_set_unit]
  exact Iff.rfl

/-- The tiles cover the output array. -/
theorem tiles_cover (i : S8192x4096.Idx) :
    ∃ t : Fin cfg2.N, (cfg2.win 3).flush t = true ∧ i ∈ ((cfg2.win 3).blk t).view.set := by
  have hi0 : (i 0).val < 8192 := (i 0).isLt
  have hi1 : (i 1).val < 4096 := (i 1).isLt
  obtain ⟨t, ht⟩ := positions_onto ⟨(i 0).val / 256, by omega⟩ ⟨(i 1).val / 1024, by omega⟩
  have q0 : win2_3.index t (0 : Fin 2) = (i 0).val / 256 := congrFun ht 0
  have q1 : win2_3.index t (1 : Fin 2) = (i 1).val / 1024 := congrFun ht 1
  refine ⟨t, flush2_3 t, ?_⟩
  rw [mem_tile]
  intro a
  match a with
  | ⟨0, _⟩ => show win2_3.index t (0 : Fin 2) * 256 ≤ (i 0).val ∧ (i 0).val < win2_3.index t (0 : Fin 2) * 256 + 256; omega
  | ⟨1, _⟩ => show win2_3.index t (1 : Fin 2) * 1024 ≤ (i 1).val ∧ (i 1).val < win2_3.index t (1 : Fin 2) * 1024 + 1024; omega

/-- THE OUTPUT ARRAY after the launch: the layer of the input, weight and bias arrays as the launch found them. -/
theorem whole_array (c : Dev nD) :
    (dat2 V c).arrAt 3 cfg2.N = Cert.Mlp.layer (R := 8192) (K := 4096) (O := 4096) (V c main_v3) (V c main_v4) (V c main_arg6) :=
  (dat2 V c).arrAt_eq_of_cover 3 _ (fun t _ => written_tile V c t) tiles_cover

end Cert.KernelIdeal.Launch2

end
-- ==== Proof.KernelValues.lean ====
/-
  The kernel program's three result arrays as functions of its arguments.

  The program alternates three host steps with three kernel launches: each host step writes a copy of one weight
  matrix in the narrower float format — the same matrix at the exact instance, where a change of format is the
  identity — and each launch leaves in its output array the layer function of the arrays it finds
  (`Launch0/1/2.whole_array`). Following each buffer through the run — a host step changes only the buffer it
  writes, a launch changes only its output array — the first result is the layer of the arguments `x, W0, b0`,
  the second the layer of the first result and `W1, b1`, the third the layer of the second and `W2, b2`
  (`first_result`, `second_result`, `third_result`); and the first two results are not touched again before
  the program returns (`final_first`, `final_second`). The run itself (`run`) is the library's theorem for a program
  of several launches, over the generated segments, read at the final contents of every buffer.
-/
import proofs.«180426_j61074434949468_1_alg».proof.Proof.Gen.KernelIdeal.Frame
import proofs.«180426_j61074434949468_1_alg».proof.Proof.Launch0
import proofs.«180426_j61074434949468_1_alg».proof.Proof.Launch1
import proofs.«180426_j61074434949468_1_alg».proof.Proof.Launch2
import Idealize.ShloMosaic.Lib.StableHlo.Run

set_option maxRecDepth 16384

noncomputable section

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Values

open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The three results -/

/-- The first result: the layer of `x, W0, b0`. -/
def h0 (c : Dev nD) : (⟨2, ![8192, 4096]⟩ : Shape).Idx → EReal :=
  Cert.Mlp.layer (R := 8192) (K := 4096) (O := 4096) (m ((c : Thread nD τ).loc main_arg0)) (m ((c : Thread nD τ).loc main_arg1)) (m ((c : Thread nD τ).loc main_arg2))
/-- The second: the layer of the first result and `W1, b1`. -/
def h1 (c : Dev nD) : (⟨2, ![8192, 4096]⟩ : Shape).Idx → EReal :=
  Cert.Mlp.layer (R := 8192) (K := 4096) (O := 4096) (h0 m c) (m ((c : Thread nD τ).loc main_arg3)) (m ((c : Thread nD τ).loc main_arg4))
/-- The third: the layer of the second result and `W2, b2`. -/
def h2 (c : Dev nD) : (⟨2, ![8192, 4096]⟩ : Shape).Idx → EReal :=
  Cert.Mlp.layer (R := 8192) (K := 4096) (O := 4096) (h1 m c) (m ((c : Thread nD τ).loc main_arg5)) (m ((c : Thread nD τ).loc main_arg6))

/-! ## The host steps: each writes one buffer, the weight matrix in the narrower format -/

section HostSteps
variable (Wv : Valuation τ sig (Elt Ideal))

theorem step0_copy : (StableHlo.after hostOps0 Wv (Proc.devRef .tc main_v0) : S4096x4096.Idx → EReal) = Wv (Proc.devRef .tc main_arg1) := by
  after_results
  rfl
theorem step0_other (b : Ref sig .tc) (hb : b ≠ main_v0) : StableHlo.after hostOps0 Wv (Proc.devRef .tc b) = Wv (Proc.devRef .tc b) := by
  simp only [hostOps0, StableHlo.after_cons, StableHlo.after_nil]
  exact StableHlo.unary_result_ne _ _ _ _ _ Wv hb
theorem step1_copy : (StableHlo.after hostOps1 Wv (Proc.devRef .tc main_v2) : S4096x4096.Idx → EReal) = Wv (Proc.devRef .tc main_arg3) := by
  after_results
  rfl
theorem step1_other (b : Ref sig .tc) (hb : b ≠ main_v2) : StableHlo.after hostOps1 Wv (Proc.devRef .tc b) = Wv (Proc.devRef .tc b) := by
  simp only [hostOps1, StableHlo.after_cons, StableHlo.after_nil]
  exact StableHlo.unary_result_ne _ _ _ _ _ Wv hb
theorem step2_copy : (StableHlo.after hostOps2 Wv (Proc.devRef .tc main_v4) : S4096x4096.Idx → EReal) = Wv (Proc.devRef .tc main_arg5) := by
  after_results
  rfl
theorem step2_other (b : Ref sig .tc) (hb : b ≠ main_v4) : StableHlo.after hostOps2 Wv (Proc.devRef .tc b) = Wv (Proc.devRef .tc b) := by
  simp only [hostOps2, StableHlo.after_cons, StableHlo.after_nil]
  exact StableHlo.unary_result_ne _ _ _ _ _ Wv hb

end HostSteps

/-! ## The first launch -/

theorem entry0_x (c : Dev nD) : (V1 m ρ c main_arg0 : S8192x4096.Idx → EReal) = m ((c : Thread nD τ).loc main_arg0) :=
  step0_other (W0 m ρ c) main_arg0 (by decide)
theorem entry0_w (c : Dev nD) : (V1 m ρ c main_v0 : S4096x4096.Idx → EReal) = m ((c : Thread nD τ).loc main_arg1) :=
  step0_copy (W0 m ρ c)
theorem entry0_b (c : Dev nD) : (V1 m ρ c main_arg2 : S4096.Idx → EReal) = m ((c : Thread nD τ).loc main_arg2) :=
  step0_other (W0 m ρ c) main_arg2 (by decide)

/-- After the first launch its output array holds the first result. -/
theorem first_result (c : Dev nD) : (W2 m ρ c (Proc.devRef .tc main_v1) : S8192x4096.Idx → EReal) = h0 m c := by
  refine (W2_arr m ρ c 3).trans ((Cert.KernelIdeal.Launch0.whole_array (V1 m ρ) c).trans ?_)
  unfold h0
  rw [entry0_x, entry0_w, entry0_b]

/-! ## The second launch -/

theorem entry1_x (c : Dev nD) : (V3 m ρ c main_v1 : S8192x4096.Idx → EReal) = h0 m c :=
  (step1_other (W2 m ρ c) main_v1 (by decide)).trans (first_result m ρ c)
theorem entry1_w (c : Dev nD) : (V3 m ρ c main_v2 : S4096x4096.Idx → EReal) = m ((c : Thread nD τ).loc main_arg3) :=
  (step1_copy (W2 m ρ c)).trans ((W2_of_ne m ρ c main_arg3 (by decide)).trans (step0_other (W0 m ρ c) main_arg3 (by decide)))
theorem entry1_b (c : Dev nD) : (V3 m ρ c main_arg4 : S4096.Idx → EReal) = m ((c : Thread nD τ).loc main_arg4) :=
  (step1_other (W2 m ρ c) main_arg4 (by decide)).trans ((W2_of_ne m ρ c main_arg4 (by decide)).trans (step0_other (W0 m ρ c) main_arg4 (by decide)))

/-- After the second launch its output array holds the second result. -/
theorem second_result (c : Dev nD) : (W4 m ρ c (Proc.devRef .tc main_v3) : S8192x4096.Idx → EReal) = h1 m c := by
  refine (W4_arr m ρ c 3).trans ((Cert.KernelIdeal.Launch1.whole_array (V3 m ρ) c).trans ?_)
  unfold h1
  rw [entry1_x, entry1_w, entry1_b]

/-! ## The third launch -/

theorem entry2_x (c : Dev nD) : (V5 m ρ c main_v3 : S8192x4096.Idx → EReal) = h1 m c :=
  (step2_other (W4 m ρ c) main_v3 (by decide)).trans (second_result m ρ c)
theorem entry2_w (c : Dev nD) : (V5 m ρ c main_v4 : S4096x4096.Idx → EReal) = m ((c : Thread nD τ).loc main_arg5) :=
  (step2_copy (W4 m ρ c)).trans ((W4_of_ne m ρ c main_arg5 (by decide)).trans ((step1_other (W2 m ρ c) main_arg5 (by decide)).trans
    ((W2_of_ne m ρ c main_arg5 (by decide)).trans (step0_other (W0 m ρ c) main_arg5 (by decide)))))
theorem entry2_b (c : Dev nD) : (V5 m ρ c main_arg6 : S4096.Idx → EReal) = m ((c : Thread nD τ).loc main_arg6) :=
  (step2_other (W4 m ρ c) main_arg6 (by decide)).trans ((W4_of_ne m ρ c main_arg6 (by decide)).trans ((step1_other (W2 m ρ c) main_arg6 (by decide)).trans
    ((W2_of_ne m ρ c main_arg6 (by decide)).trans (step0_other (W0 m ρ c) main_arg6 (by decide)))))

/-- After the third launch its output array holds the third result. -/
theorem third_result (c : Dev nD) : (W6 m ρ c (Proc.devRef .tc main_v5) : S8192x4096.Idx → EReal) = h2 m c := by
  refine (W6_arr m ρ c 3).trans ((Cert.KernelIdeal.Launch2.whole_array (V5 m ρ) c).trans ?_)
  unfold h2
  rw [entry2_x, entry2_w, entry2_b]

/-! ## The earlier results at the return: read by the later launches, written by none -/

/-- The second result is the third launch's input array: it ends as that launch found it. -/
theorem final_second (c : Dev nD) : (W6 m ρ c (Proc.devRef .tc main_v3) : S8192x4096.Idx → EReal) = h1 m c :=
  (W6_arr m ρ c 0).trans (((dat2 (V5 m ρ) c).arrAt_in 0 rfl _).trans ((A_eq2 (V5 m ρ) c 0).trans (entry2_x m ρ c)))

/-- The first result is the second launch's input array, and the third launch and host step do not touch it. -/
theorem final_first (c : Dev nD) : (W6 m ρ c (Proc.devRef .tc main_v1) : S8192x4096.Idx → EReal) = h0 m c :=
  (W6_of_ne m ρ c main_v1 (by decide)).trans ((step2_other (W4 m ρ c) main_v1 (by decide)).trans
    ((W4_arr m ρ c 0).trans (((dat1 (V3 m ρ) c).arrAt_in 0 rfl _).trans ((A_eq1 (V3 m ρ) c 0).trans (entry1_x m ρ c)))))

/-! ## The run -/

set_option backward.isDefEq.respectTransparency.types false in
/-- Every weakly fair execution of the program terminates, nothing faulting, and in every final state each buffer the
    program keeps to the end holds the contents the run's last boundary names. -/
theorem run_contents : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE RUN: the three result arrays end at the three results, the arguments as launched. -/
theorem run : θ_run defs (onTc (τ := τ) (main (F := Ideal))) ⟨m, fun _ => 0, ρ⟩ (fun r => ∀ c : Dev nD,
      r.2.mem ((c.tc : Thread nD τ).loc main_v1) = h0 m c
      ∧ r.2.mem ((c.tc : Thread nD τ).loc main_v3) = h1 m c
      ∧ r.2.mem ((c.tc : Thread nD τ).loc main_v5) = h2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v1 (by decide))).trans (final_first m ρ c),
     (h c _ (mem_uc main_v3 (by decide))).trans (final_second m ρ c),
     (h c _ (mem_uc main_v5 (by decide))).trans (third_result m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩)
    (run_contents m ρ)

end Cert.KernelIdeal.Values

end
-- ==== Proof.RefLayers.lean ====
/-
  The reference program, layer by layer.

  The reference computes three layers in a row; the generated reading of its run names the first layer's value as a
  function `val_main_v9` of an input matrix, a weight matrix and a bias. Read index by index at the exact instance
  that function is the layer function of this certificate (`first_layer`): the host's sum of squares along a row
  (from the initial value zero), its square root, the clamp from below, the quotient, the host's contraction of
  the normalised row with a weight row, the bias and the clamp at zero. The second and third results are the same
  function applied to the previous result and the next weights and bias (`second_layer`, `third_layer`): the
  program repeats the same operations on them.
-/
import proofs.«180426_j61074434949468_1_alg».proof.Proof.Gen.ReferenceIdeal.Read
import proofs.«180426_j61074434949468_1_alg».proof.Proof.Layer

noncomputable section

open Idealize.ShloMosaic Idealize.ShloMosaic.ValueIdx

namespace Cert.ReferenceIdeal.Layers

open Cert.ReferenceIdeal Cert.ReferenceIdeal.Gen Cert.ReferenceIdeal.Read

/-- The clamped norm of a row as the reference computes it, broadcast along the row. -/
theorem clampedNorm_apply (X : FVec Ideal S8192x4096 .f32) (r : Fin 8192) (k : Fin 4096) :
    val_main_v3 (F := Ideal) X (ix2 r k) = Cert.Mlp.rowNorm (R := 8192) (K := 4096) X r := by
  rw [val_main_v3_apply, val_main_v2_apply, val_main_v0_apply, val_main_call0_v2_apply, val_main_call0_v1_apply,
    val_main_v1_apply, val_main_cst_apply, val_main_call0_cst_apply]
  unfold Cert.Mlp.rowNorm
  simp only [val_main_call0_v0_apply, Ideal.maximumf_def, Ideal.hostUnary_sqrt_def, Ideal.mulf_def, Ideal.ofBits_def,
    Ideal.ofBits_zero_f32, zero_add]
  refine congrArg₂ max (congrArg Ideal.sqrt (Finset.sum_congr rfl fun k' _ => ?_)) rfl
  have e : idx_main_call0_v1 (idx_main_call0_v2 (idx_main_v3 (ix2 r k))) k' = ix2 r k' :=
    funext fun a => Fin.ext (by match a with | ⟨0, _⟩ => rfl | ⟨1, _⟩ => rfl)
  rw [e]

/-- THE FIRST LAYER of the reference is the layer function. -/
theorem first_layer (X : FVec Ideal S8192x4096 .f32) (W : FVec Ideal S4096x4096 .f32) (b : FVec Ideal S4096 .f32) :
    val_main_v9 (F := Ideal) X W b = Cert.Mlp.layer (R := 8192) (K := 4096) (O := 4096) X W b := by
  funext i
  obtain ⟨r, o, rfl⟩ : ∃ (r : Fin 8192) (o : Fin 4096), i = ix2 r o := ⟨i 0, i 1, eq_ix2 i⟩
  rw [Cert.Mlp.layer_apply, val_main_v9_apply, val_main_v8_apply, val_main_v5_apply, val_main_call1_v0_apply,
    val_main_call1_cst_apply, val_main_v7_apply, val_main_v6_apply]
  unfold Cert.Mlp.entry
  simp only [Ideal.maximumf_def, Ideal.addf_def, Ideal.ofBits_def]
  refine congrArg₂ max (congrArg₂ (· + ·) (Finset.sum_congr rfl fun k _ => ?_) ?_) rfl
  · have el : lidx_main_v5 (ix2 r o) k = ix2 r k :=
      funext fun a => Fin.ext (by match a with | ⟨0, _⟩ => rfl | ⟨1, _⟩ => rfl)
    have er : ridx_main_v5 (ix2 r o) k = ix2 o k :=
      funext fun a => Fin.ext (by match a with | ⟨0, _⟩ => rfl | ⟨1, _⟩ => rfl)
    rw [el, er, val_main_v4_apply, clampedNorm_apply, Ideal.hostDivf_def]
  · exact congrArg b (funext fun a => Fin.ext (by match a with | ⟨0, _⟩ => rfl))

/-- The second result is the layer function's program applied to the first result. -/
theorem second_layer (x0 : FVec Ideal S8192x4096 .f32) (x1 : FVec Ideal S4096x4096 .f32) (x2 : FVec Ideal S4096 .f32)
    (x3 : FVec Ideal S4096x4096 .f32) (x4 : FVec Ideal S4096 .f32) :
    val_main_v19 (F := Ideal) x0 x1 x2 x3 x4 = val_main_v9 (F := Ideal) (val_main_v9 (F := Ideal) x0 x1 x2) x3 x4 := rfl

/-- The third result likewise, of the second. -/
theorem third_layer (x0 : FVec Ideal S8192x4096 .f32) (x1 : FVec Ideal S4096x4096 .f32) (x2 : FVec Ideal S4096 .f32)
    (x3 : FVec Ideal S4096x4096 .f32) (x4 : FVec Ideal S4096 .f32) (x5 : FVec Ideal S4096x4096 .f32) (x6 : FVec Ideal S4096 .f32) :
    val_main_v29 (F := Ideal) x0 x1 x2 x3 x4 x5 x6
      = val_main_v9 (F := Ideal) (val_main_v19 (F := Ideal) x0 x1 x2 x3 x4) x5 x6 := rfl

end Cert.ReferenceIdeal.Layers

end
-- ==== Proof.lean ====
/-
  Three layers of `relu (Linear (normalize x))`: the kernel program against its reference, on the extended reals.

  Each layer divides every row of its input by the row's Euclidean norm (clamped from below by a small constant),
  multiplies by the transposed weight matrix, adds the bias and clamps at zero; the three layers are chained and all
  three results returned. The kernel program computes each layer in one launch over a 32 × 4 grid of 256 × 1024
  output tiles, with the weights first copied to the narrower float format; the reference computes it with whole-array
  host operations. At the exact instance a change of float format is the identity, the matrix unit's product into a
  zero accumulator and the host's contraction are the same sum of products, and the kernel's row reduction and the
  host's sum from zero are the same sum; so both programs compute, entry by entry, the one function `Cert.Mlp.layer`:

    * the kernel side: a tile is the layer of its bands (Proof/KernelTile.lean), each launch leaves the layer of the
      arrays it finds (Proof/Launch0, 1, 2), and following the buffers through the run gives the three results as
      nested layers of the arguments (Proof/KernelValues.lean);
    * the reference side: its first result is the layer of the arguments and the next two apply the same program to
      the previous result (Proof/RefLayers.lean).

  No algebraic law beyond these identities is used, so the finiteness of the inputs is never opened. The idealisation
  rewrote no operation, so `preserves` is trivial; the frames are the generated ones, the reference's its generated run.
-/
import proofs.«180426_j61074434949468_1_alg».proof.Defs
import proofs.«180426_j61074434949468_1_alg».proof.Proof.Gen.Kernel
import proofs.«180426_j61074434949468_1_alg».proof.Proof.Gen.Kernel.Skeleton
import proofs.«180426_j61074434949468_1_alg».proof.Proof.Gen.Kernel.Launch
import proofs.«180426_j61074434949468_1_alg».proof.Proof.Gen.Kernel.Points
import proofs.«180426_j61074434949468_1_alg».proof.Proof.Gen.Kernel.Frame
import proofs.«180426_j61074434949468_1_alg».proof.Proof.Gen.KernelIdeal
import proofs.«180426_j61074434949468_1_alg».proof.Proof.Gen.KernelIdeal.Skeleton
import proofs.«180426_j61074434949468_1_alg».proof.Proof.Gen.KernelIdeal.Launch
import proofs.«180426_j61074434949468_1_alg».proof.Proof.Gen.KernelIdeal.Points
import proofs.«180426_j61074434949468_1_alg».proof.Proof.Gen.KernelIdeal.Frame
import proofs.«180426_j61074434949468_1_alg».proof.Proof.Gen.ReferenceIdeal
import proofs.«180426_j61074434949468_1_alg».proof.Proof.Gen.ReferenceIdeal.Run
import proofs.«180426_j61074434949468_1_alg».proof.Proof.Gen.ReferenceIdeal.Read
import proofs.«180426_j61074434949468_1_alg».proof.Proof.Gen.Pre_finite_inputs
import proofs.«180426_j61074434949468_1_alg».proof.Proof.KernelValues
import proofs.«180426_j61074434949468_1_alg».proof.Proof.RefLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealisation rewrote nothing. -/
theorem preserves : Cert.preserves_Kernel_KernelIdeal := trivial

/-- Both programs end with the three nested layers of the arguments in their result arrays. -/
theorem algebraic : Cert.algebraic_KernelIdeal_ReferenceIdeal := by
  intro m ρ m' ρ' _ hagree
  refine ⟨fun c => Cert.KernelIdeal.Values.h0 m c, fun c => Cert.KernelIdeal.Values.h1 m c, fun c => Cert.KernelIdeal.Values.h2 m c,
    Cert.KernelIdeal.Values.run m ρ, ?_⟩
  refine (θ_run Cert.ReferenceIdeal.defs _ _).mono (fun _ h c => ?_) (Cert.ReferenceIdeal.Value.run (F := Ideal) m' ρ')
  obtain ⟨r0, r1, r2, rargs⟩ := h c
  obtain ⟨a0, a1, a2, a3, a4, a5, a6⟩ := hagree c
  refine ⟨r0.trans ?_, r1.trans ?_, r2.trans ?_, rargs⟩
  · rw [Cert.ReferenceIdeal.Read.val_main_v9_eq]
    simp only [Cert.ReferenceIdeal.Layers.first_layer, a0, a1, a2, Cert.KernelIdeal.Values.h0]
  · rw [Cert.ReferenceIdeal.Read.val_main_v19_eq]
    simp only [Cert.ReferenceIdeal.Layers.second_layer, Cert.ReferenceIdeal.Layers.first_layer, a0, a1, a2, a3, a4,
      Cert.KernelIdeal.Values.h1, Cert.KernelIdeal.Values.h0]
  · rw [Cert.ReferenceIdeal.Read.val_main_v29_eq]
    simp only [Cert.ReferenceIdeal.Layers.third_layer, Cert.ReferenceIdeal.Layers.second_layer, Cert.ReferenceIdeal.Layers.first_layer,
      a0, a1, a2, a3, a4, a5, a6, Cert.KernelIdeal.Values.h2, Cert.KernelIdeal.Values.h1, Cert.KernelIdeal.Values.h0]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
